-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S800000x16 : Shape := ⟨2, ![800000, 16]⟩
abbrev S800000 : Shape := ⟨1, ![800000]⟩
abbrev S95x64 : Shape := ⟨2, ![95, 64]⟩
abbrev S16x64 : Shape := ⟨2, ![16, 64]⟩
abbrev S64 : Shape := ⟨1, ![64]⟩
abbrev S192x64 : Shape := ⟨2, ![192, 64]⟩
abbrev S_ : Shape := ⟨0, ![]⟩

class Facts : Prop where
  bcast_S_S800000x16 : S_.BroadcastsInDim S800000x16 (![] : Fin 0 → Fin S800000x16.rank)
  reducesTo_S800000x16_S_d0_1 : S800000x16.ReducesTo [0, 1] S_
  h_S_ : 0 < S_.numel
  bcast_S_S95x64 : S_.BroadcastsInDim S95x64 (![] : Fin 0 → Fin S95x64.rank)
  reducesTo_S95x64_S_d0_1 : S95x64.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_

variable [Facts]

def fn_part1 {F : FTy → Type} [FloatOps F] (main_arg7 : FVec F S192x64 .f32) (main_arg8 : FVec F S64 .f32) (main_arg9 : FVec F S16x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S192x64 .f32 := Host.absf main_arg7
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S16x64 .f32 := Host.absf main_arg9
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  main_v33

def fn {F : FTy → Type} [FloatOps F] (main_arg0 : IVec S100000 32) (main_arg1 : FVec F S800000x16 .f32) (main_arg2 : IVec S800000 32) (main_arg3 : IVec S800000 32) (main_arg4 : FVec F S95x64 .f32) (main_arg5 : FVec F S16x64 .f32) (main_arg6 : FVec F S64 .f32) (main_arg7 : FVec F S192x64 .f32) (main_arg8 : FVec F S64 .f32) (main_arg9 : FVec F S16x64 .f32) : IVec S_ 1 :=
  let main_v0 : FVec F S800000x16 .f32 := Host.absf main_arg1
  let main_cst : FVec F S_ .f32 := constant S_ .f32 0x7F800000#32
  let main_v1 : FVec F S800000x16 .f32 := broadcastInDim S800000x16 ![] bcast_S_S800000x16 main_cst
  let main_v2 : IVec S800000x16 1 := cmpf .olt main_v0 main_v1
  let main_c : IVec S_ 1 := constantI S_ 1 1#1
  let main_v3 : IVec S_ 1 := (fun x v => Host.reduce IntOp.andi x v reducesTo_S800000x16_S_d0_1 h_S_) main_v2 main_c
  let main_v4 : FVec F S95x64 .f32 := Host.absf main_arg4
  let main_cst_0 : FVec F S_ .f32 := constant S_ .f32 0x7F800000#32
  let main_v5 : FVec F S95x64 .f32 := broadcastInDim S95x64 ![] bcast_S_S95x64 main_cst_0
  let main_v6 : IVec S95x64 1 := cmpf .olt main_v4 main_v5
  let main_c_1 : IVec S_ 1 := constantI S_ 1 1#1
  let main_v7 : IVec S_ 1 := (fun x v => Host.reduce IntOp.andi x v reducesTo_S95x64_S_d0_1 h_S_) main_v6 main_c_1
  let main_v8 : IVec S_ 1 := andi main_v3 main_v7
  let main_v9 : FVec F S16x64 .f32 := Host.absf main_arg5
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_v13 main_v16
-- ==== Kernel.lean ====
abbrev S100000 : Shape := ⟨1, ![100000]⟩
abbrev S800000x16 : Shape := ⟨2, ![800000, 16]⟩
abbrev S800000 : Shape := ⟨1, ![800000]⟩
abbrev S95x64 : Shape := ⟨2, ![95, 64]⟩
abbrev S16x64 : Shape := ⟨2, ![16, 64]⟩
abbrev S64 : Shape := ⟨1, ![64]⟩
abbrev S192x64 : Shape := ⟨2, ![192, 64]⟩
abbrev S_ : Shape := ⟨0, ![]⟩
abbrev S100000x1 : Shape := ⟨2, ![100000, 1]⟩
abbrev S100000x64 : Shape := ⟨2, ![100000, 64]⟩
abbrev S800000x1 : Shape := ⟨2, ![800000, 1]⟩
abbrev S800000x64 : Shape := ⟨2, ![800000, 64]⟩
abbrev S64x64 : Shape := ⟨2, ![64, 64]⟩
abbrev S1x64 : Shape := ⟨2, ![1, 64]⟩
abbrev S4000x64 : Shape := ⟨2, ![4000, 64]⟩
abbrev S4000x16 : Shape := ⟨2, ![4000, 16]⟩

abbrev nBuf : Space → Nat
  | .hbm => 44
  | .vmem => 17
  | .smem => 0
  | _ => 0

abbrev bufTy : (tb : Table) → Fin (tcTables nBuf tb) → BufTy
  | .hbm, ⟨0, _⟩ => ⟨S100000, .i32⟩
  | .hbm, ⟨1, _⟩ => ⟨S800000x16, .f32⟩
  | .hbm, ⟨2, _⟩ => ⟨S800000, .i32⟩
  | .hbm, ⟨3, _⟩ => ⟨S800000, .i32⟩
  | .hbm, ⟨4, _⟩ => ⟨S95x64, .f32⟩
  | .hbm, ⟨5, _⟩ => ⟨S16x64, .f32⟩
  | .hbm, ⟨6, _⟩ => ⟨S64, .f32⟩
  | .hbm, ⟨7, _⟩ => ⟨S192x64, .f32⟩
  | .hbm, ⟨8, _⟩ => ⟨S64, .f32⟩
  | .hbm, ⟨9, _⟩ => ⟨S16x64, .f32⟩
  | .hbm, ⟨10, _⟩ => ⟨S_, .i32⟩
  | .hbm, ⟨11, _⟩ => ⟨S100000, .i32⟩
  | .hbm, ⟨12, _⟩ => ⟨S100000, .i1⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S100000x1, .i32⟩
  | .hbm, ⟨18, _⟩ => ⟨S100000x64, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S1x64, .f32⟩
  | .hbm, ⟨41, _⟩ => ⟨S1x64, .f32⟩
  | .hbm, ⟨42, _⟩ => ⟨S800000x64, .f32⟩
  | .hbm, ⟨43, _⟩ => ⟨S800000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x16, .f32⟩
  | .local _ .vmem, ⟨5, _⟩ => ⟨S4000x16, .f32⟩
  | .local _ .vmem, ⟨6, _⟩ => ⟨S16x64, .f32⟩
  | .local _ .vmem, ⟨7, _⟩ => ⟨S1x64, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S1x64, .f32⟩
  | .local _ .vmem, ⟨12, _⟩ => ⟨S16x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S800000 : S_.BroadcastsInDim S800000 (![] : Fin 0 → Fin S800000.rank)
  bcast_S800000_S800000x1_0 : S800000.BroadcastsInDim S800000x1 (![0] : Fin 1 → Fin S800000x1.rank)
  slices_S192x64_S64x64_0_0 : S192x64.Slices ![0, 0] S64x64
  slices_S192x64_S64x64_64_0 : S192x64.Slices ![64, 0] S64x64
  slices_S192x64_S64x64_128_0 : S192x64.Slices ![128, 0] S64x64
  shapeCasts_S64_S1x64 : S64.ShapeCasts S1x64
  inb_S4000x16_S4000x16_0_0 : ∀ a, (![0, 0] : Fin 2 → Nat) a + S4000x16.size a ≤ S4000x16.size a
  h_S4000x16 : 0 < S4000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  gather_S95x64_S100000x1_S100000x64_1_0_n_n_0_1_164_wf : GatherDims.WF S95x64 S100000x1 S100000x64 [1] [0] [] [0] [] 1 ![1, 64]
  gather_S100000x64_S800000x1_S800000x64_1_0_n_n_0_1_164_wf : GatherDims.WF S100000x64 S800000x1 S800000x64 [1] [0] [] [0] [] 1 ![1, 64]
  dot_S4000x16_S16x64_S4000x64_1_0_0_1_n_n_wf : DotDims.WF S4000x16 S16x64 S4000x64 [1] [0] [0] [1] [] []
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S800000x16.size a
  hwx0_2 : ∀ i : grid0.Coords, EltTy.bits .f32 = 32 ∨ (Rect.block (s := S800000x16) S4000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x64.size a ≤ S16x64.size a
  hwx0_9 : ∀ i : grid0.Coords, EltTy.bits .f32 = 32 ∨ (Rect.block (s := S16x64) S16x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x64.size a ≤ S800000x64.size a
  hwx0_10 : ∀ i : grid0.Coords, EltTy.bits .f32 = 32 ∨ (Rect.block (s := S800000x64) S4000x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x64.size a ≤ S800000x64.size a
  hwx0_11 : ∀ i : grid0.Coords, EltTy.bits .f32 = 32 ∨ (Rect.block (s := S800000x64) S4000x64.size (cc0_transform_11 i) (hinb0_11 i)).WholeWords (EltTy.packing .f32)

variable [Facts₀]

def gather_S95x64_S100000x1_S100000x64_1_0_n_n_0_1_164 : GatherDims S95x64 S100000x1 S100000x64 where
  offsetDims := [1]
  collapsedSliceDims := [0]
  operandBatchingDims := []
  startIndicesBatchingDims := []
  startIndexMap := [0]
  indexVectorDim := 1
  sliceSizes := ![1, 64]
  wf := gather_S95x64_S100000x1_S100000x64_1_0_n_n_0_1_164_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v13) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S16x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26_0) S4000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v26_1) S4000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000 : Shape := ⟨1, ![100000]⟩
abbrev S800000x16 : Shape := ⟨2, ![800000, 16]⟩
abbrev S800000 : Shape := ⟨1, ![800000]⟩
abbrev S95x64 : Shape := ⟨2, ![95, 64]⟩
abbrev S16x64 : Shape := ⟨2, ![16, 64]⟩
abbrev S64 : Shape := ⟨1, ![64]⟩
abbrev S192x64 : Shape := ⟨2, ![192, 64]⟩
abbrev S_ : Shape := ⟨0, ![]⟩
abbrev S100000x1 : Shape := ⟨2, ![100000, 1]⟩
abbrev S100000x64 : Shape := ⟨2, ![100000, 64]⟩
abbrev S800000x64 : Shape := ⟨2, ![800000, 64]⟩
abbrev S1x64 : Shape := ⟨2, ![1, 64]⟩
abbrev S800000x1 : Shape := ⟨2, ![800000, 1]⟩
abbrev S800000x192 : Shape := ⟨2, ![800000, 192]⟩

abbrev nBuf : Space → Nat
  | .hbm => 66
  | .vmem => 0
  | .smem => 0
  | _ => 0

abbrev bufTy : (tb : Table) → Fin (tcTables nBuf tb) → BufTy
  | .hbm, ⟨0, _⟩ => ⟨S100000, .i32⟩
  | .hbm, ⟨1, _⟩ => ⟨S800000x16, .f32⟩
  | .hbm, ⟨2, _⟩ => ⟨S800000, .i32⟩
  | .hbm, ⟨3, _⟩ => ⟨S800000, .i32⟩
  | .hbm, ⟨4, _⟩ => ⟨S95x64, .f32⟩
  | .hbm, ⟨5, _⟩ => ⟨S16x64, .f32⟩
  | .hbm, ⟨6, _⟩ => ⟨S64, .f32⟩
  | .hbm, ⟨7, _⟩ => ⟨S192x64, .f32⟩
  | .hbm, ⟨8, _⟩ => ⟨S64, .f32⟩
  | .hbm, ⟨9, _⟩ => ⟨S16x64, .f32⟩
  | .hbm, ⟨10, _⟩ => ⟨S_, .i32⟩
  | .hbm, ⟨11, _⟩ => ⟨S100000, .i32⟩
  | .hbm, ⟨12, _⟩ => ⟨S100000, .i1⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S100000x1, .i32⟩
  | .hbm, ⟨18, _⟩ => ⟨S100000x64, .f32⟩
  | .hbm, ⟨19, _⟩ => ⟨S800000x64, .f32⟩
  | .hbm, ⟨20, _⟩ => ⟨S1x64, .f32⟩
  | .hbm, ⟨21, _⟩ => ⟨S800000x64, .f32⟩
  | .hbm, ⟨22, _⟩ => ⟨S800000x64, .f32⟩
  | .hbm, ⟨23, _⟩ => ⟨S800000x64, .f32⟩
  | .hbm, ⟨24, _⟩ => ⟨S800000x64, .f32⟩
  | .hbm, ⟨25, _⟩ => ⟨S_, .f32⟩
  | .hbm, ⟨26, _⟩ => ⟨S800000x64, .f32⟩
  | .hbm, ⟨27, _⟩ => ⟨S800000x64, .f32⟩
  | .hbm, ⟨28, _⟩ => ⟨S_, .f32⟩
  | .hbm, ⟨29, _⟩ => ⟨S800000x64, .f32⟩
  | .hbm, ⟨30, _⟩ => ⟨S800000x64, .f32⟩
  | .hbm, ⟨31, _⟩ => ⟨S800000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S800000x192, .f32⟩
  | .hbm, ⟨51, _⟩ => ⟨S800000x64, .f32⟩
  | .hbm, ⟨52, _⟩ => ⟨S1x64, .f32⟩
  | .hbm, ⟨53, _⟩ => ⟨S800000x64, .f32⟩
  | .hbm, ⟨54, _⟩ => ⟨S800000x64, .f32⟩
  | .hbm, ⟨55, _⟩ => ⟨S800000x64, .f32⟩
  | .hbm, ⟨56, _⟩ => ⟨S800000x64, .f32⟩
  | .hbm, ⟨57, _⟩ => ⟨S_, .f32⟩
  | .hbm, ⟨58, _⟩ => ⟨S800000x64, .f32⟩
  | .hbm, ⟨59, _⟩ => ⟨S800000x64, .f32⟩
  | .hbm, ⟨60, _⟩ => ⟨S_, .f32⟩
  | .hbm, ⟨61, _⟩ => ⟨S800000x64, .f32⟩
  | .hbm, ⟨62, _⟩ => ⟨S800000x64, .f32⟩
  | .hbm, ⟨63, _⟩ => ⟨S800000x64, .f32⟩
  | .hbm, ⟨64, _⟩ => ⟨S800000x64, .f32⟩
  | .hbm, ⟨65, _⟩ => ⟨S800000x64, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  gather_S95x64_S100000x1_S100000x64_1_0_n_n_0_1_164_wf : GatherDims.WF S95x64 S100000x1 S100000x64 [1] [0] [] [0] [] 1 ![1, 64]
  dot_S800000x16_S16x64_S800000x64_1_0_0_1_n_n_wf : DotDims.WF S800000x16 S16x64 S800000x64 [1] [0] [0] [1] [] []
  gather_S100000x64_S800000x1_S800000x64_1_0_n_n_0_1_164_wf : GatherDims.WF S100000x64 S800000x1 S800000x64 [1] [0] [] [0] [] 1 ![1, 64]
  dot_S800000x192_S192x64_S800000x64_1_0_0_1_n_n_wf : DotDims.WF S800000x192 S192x64 S800000x64 [1] [0] [0] [1] [] []

variable [Facts₀]

def gather_S95x64_S100000x1_S100000x64_1_0_n_n_0_1_164 : GatherDims S95x64 S100000x1 S100000x64 where
  offsetDims := [1]
  collapsedSliceDims := [0]
  operandBatchingDims := []
  startIndicesBatchingDims := []
  startIndexMap := [0]
  indexVectorDim := 1
  sliceSizes := ![1, 64]
  wf := gather_S95x64_S100000x1_S100000x64_1_0_n_n_0_1_164_wf
def dot_S800000x16_S16x64_S800000x64_1_0_0_1_n_n : DotDims S800000x16 S16x64 S800000x64 where
  lhsContracting := [1]
  rhsContracting := [0]
  lhsNonContracting := [0]
  rhsNonContracting := [1]
  lhsBatch := []
  rhsBatch := []
  wf := dot_S800000x16_S16x64_S800000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf

class Facts : Prop extends Facts₀ where

variable [Facts]
-- ==== Proof.EdgeSpec.lean ====
import Idealize.ShloMosaic.Lib.ValueIdx
import Idealize.ShloMosaic.PureOps.Ideal.Laws

/-!
# The edge features of one message-passing layer, index by index

An edge `r` carries the embedding rows of its two endpoints, `xi[r, ·]` and `xj[r, ·]` (64 wide), and 16 radial-basis
values `rbf[r, ·]`. With `swish v = v · logistic v` on the extended reals,

  h[r, k]   = swish (∑ j, rbf[r, j] · W₀[j, k] + b₀[k])                                             (64 wide)
  a[r, q]   = ((∑ k, xi[r, k] · W[k, q] + ∑ k, xj[r, k] · W[64 + k, q]) + ∑ k, h[r, k] · W[128 + k, q]) + b[q]
  e₁[r, q]  = swish a[r, q]
  e₂[r, q]  = (∑ j, rbf[r, j] · W₁[j, q]) · e₁[r, q].

The three sums of `a` run over the three row blocks of the weight `W : [192, 64]`. Laying the three 64-wide rows side
by side into one row of 192 and multiplying by the whole of `W` gives one sum over 192 terms: `sum_three_blocks` is the
law that it is the three block sums added in that order. It holds in every additive commutative monoid, so on the extended
reals it needs no finiteness of any term.

`swish` is also met spelt out, `v · (1 / (1 + e^(-v)))` with the two ones as the single-precision word of `1.0`:
`swish_spelt`.
-/

noncomputable section

open scoped BigOperators

namespace EdgeFeats

open Idealize.ShloMosaic Idealize.ShloMosaic.ValueIdx

/-- A matrix of extended reals with literal extents. -/
abbrev Mat (a b : Nat) : Type := (⟨2, ![a, b]⟩ : Shape).Idx → EReal
/-- A vector of extended reals with a literal extent. -/
abbrev Row (a : Nat) : Type := (⟨1, ![a]⟩ : Shape).Idx → EReal

/-- `v · logistic v`, with `logistic ⊥ = 0` and `logistic ⊤ = 1`. -/
def swish (v : EReal) : EReal := v * Ideal.logistic v

/-- The single-precision word of `1.0` is the real number one. -/
theorem one_word : Ideal.ofBits .f32 0x3F800000#32 = (1 : EReal) := by
  simp [Ideal.ofBits, Ideal.ieee, -EReal.coe_mul]; norm_num

/-- The logistic function spelt as a quotient, `1 / (1 + e^(-v))`, is the logistic function: on every extended real, the
    infinities included, since that quotient is its definition. -/
theorem swish_spelt (v : EReal) :
    v * Ideal.div (Ideal.ofBits .f32 0x3F800000#32) (Ideal.ofBits .f32 0x3F800000#32 + Ideal.exp (-v)) = swish v := by
  rw [one_word]; rfl

/-- Row `k` of the first, second and third 64-row block of a 192-row matrix. -/
def lo (k : Fin 64) : Fin 192 := ⟨k.val, by omega⟩
def mid (k : Fin 64) : Fin 192 := ⟨64 + k.val, by omega⟩
def hi (k : Fin 64) : Fin 192 := ⟨128 + k.val, by omega⟩

/-- A sum over 192 terms is the sums over its three runs of 64, added left to right. -/
theorem sum_three_blocks {M : Type*} [AddCommMonoid M] (f : Fin 192 → M) :
    ∑ k : Fin 192, f k = (∑ k : Fin 64, f (lo k) + ∑ k : Fin 64, f (mid k)) + ∑ k : Fin 64, f (hi k) := by
  have h1 := Fin.sum_univ_add (a := 128) (b := 64) (f : Fin (128 + 64) → M)
  have h2 := Fin.sum_univ_add (a := 64) (b := 64) (fun i : Fin (64 + 64) => f (Fin.castAdd 64 i))
  exact h1.trans (congrArg (· + ∑ k : Fin 64, f (hi k)) h2)

/-- The hidden radial features `h[r, k]`. -/
def radial (rbf : Mat 800000 16) (W0 : Mat 16 64) (b0 : Row 64) (r : Fin 800000) (k : Fin 64) : EReal :=
  swish ((∑ j : Fin 16, rbf (ix2 r j) * W0 (ix2 j k)) + b0 (ix1 k))

/-- The pre-activation `a[r, q]`: the three block products added left to right, then the bias. -/
def pre (xi xj : Mat 800000 64) (rbf : Mat 800000 16) (W0 : Mat 16 64) (b0 : Row 64) (W : Mat 192 64) (b : Row 64)
    (r : Fin 800000) (q : Fin 64) : EReal :=
  ((∑ k : Fin 64, xi (ix2 r k) * W (ix2 (lo k) q) + ∑ k : Fin 64, xj (ix2 r k) * W (ix2 (mid k) q))
    + ∑ k : Fin 64, radial rbf W0 b0 r k * W (ix2 (hi k) q)) + b (ix1 q)

/-- The first result, `e₁ = swish a`. -/
def e1 (xi xj : Mat 800000 64) (rbf : Mat 800000 16) (W0 : Mat 16 64) (b0 : Row 64) (W : Mat 192 64) (b : Row 64) :
    Mat 800000 64 :=
  fun i => swish (pre xi xj rbf W0 b0 W b (i 0) (i 1))

/-- The second result, `e₂ = (rbf · W₁) ⊙ e₁`. -/
def e2 (xi xj : Mat 800000 64) (rbf : Mat 800000 16) (W0 : Mat 16 64) (b0 : Row 64) (W : Mat 192 64) (b : Row 64)
    (W1 : Mat 16 64) : Mat 800000 64 :=
  fun i => (∑ j : Fin 16, rbf (ix2 (i 0) j) * W1 (ix2 j (i 1))) * e1 xi xj rbf W0 b0 W b i

end EdgeFeats

end
-- ==== Proof.RefEdge.lean ====
import proofs.«133164_j79542794322611_1_alg».proof.Proof.Gen.ReferenceIdeal.Read
import proofs.«133164_j79542794322611_1_alg».proof.Proof.EdgeSpec

/-!
# The host program computes the edge features of `EdgeFeats`

Read one operation at a time, the host program forms `h = swish (rbf · W₀ + b₀)`, lays the two gathered endpoint rows
and `h` side by side into one row of 192, multiplies that row by the whole weight `W : [192, 64]`, adds the bias and
applies `swish` once more; the second result multiplies by `rbf · W₁`. Its `swish` is spelt `v · (1 / (1 + e^(-v)))`.

Column `c` of the joined row is column `c` of the first piece for `c < 64`, column `c - 64` of the second for
`64 ≤ c < 128` and column `c - 128` of the third beyond, so the one sum over 192 is the three block sums of
`EdgeFeats.pre` (`EdgeFeats.sum_three_blocks`). The gathered rows are carried as they are: which rows they hold is the
same question on both sides of the certificate and is never opened.
-/

noncomputable section

open scoped BigOperators

namespace Cert.ReferenceIdeal.Edge

open Cert.ReferenceIdeal Cert.ReferenceIdeal.Gen Cert.ReferenceIdeal.Read Idealize.ShloMosaic Idealize.ShloMosaic.ValueIdx EdgeFeats

variable (x0 : (⟨S100000, .i32⟩ : BufTy).Contents (Elt Ideal)) (x1 : (⟨S800000x16, .f32⟩ : BufTy).Contents (Elt Ideal))
  (x2 x3 : (⟨S800000, .i32⟩ : BufTy).Contents (Elt Ideal)) (x4 : (⟨S95x64, .f32⟩ : BufTy).Contents (Elt Ideal))
  (x5 : (⟨S16x64, .f32⟩ : BufTy).Contents (Elt Ideal)) (x6 : (⟨S64, .f32⟩ : BufTy).Contents (Elt Ideal))
  (x7 : (⟨S192x64, .f32⟩ : BufTy).Contents (Elt Ideal)) (x8 : (⟨S64, .f32⟩ : BufTy).Contents (Elt Ideal))
  (x9 : (⟨S16x64, .f32⟩ : BufTy).Contents (Elt Ideal))

/-- `rbf · W₀ + b₀` at `(r, k)`. -/
theorem radial_pre (r : Fin 800000) (k : Fin 64) :
    val_main_v10 (F := Ideal) x1 x5 x6 (ix2 r k) = (∑ j : Fin 16, x1 (ix2 r j) * x5 (ix2 j k)) + x6 (ix1 k) := by
  rw [val_main_v10_apply, val_main_v7_apply, val_main_v9_apply, val_main_v8_apply]
  have el : ∀ j : Fin 16, lidx_main_v7 (ix2 r k) j = ix2 r j := fun j => funext fun a => Fin.ext (by
    match a with | ⟨0, _⟩ => rfl | ⟨1, _⟩ => rfl)
  have er : ∀ j : Fin 16, ridx_main_v7 (ix2 r k) j = ix2 j k := fun j => funext fun a => Fin.ext (by
    match a with | ⟨0, _⟩ => rfl | ⟨1, _⟩ => rfl)
  have eb : idx_main_v8 (idx_main_v9 (ix2 r k)) = ix1 k := funext fun a => Fin.ext (by
    match a with | ⟨0, _⟩ => rfl)
  simp only [el, er, eb]
  rfl

/-- The host's hidden radial features are `EdgeFeats.radial`. -/
theorem radial_eq (r : Fin 800000) (k : Fin 64) :
    val_main_v17 (F := Ideal) x1 x5 x6 (ix2 r k) = radial x1 x5 x6 r k := by
  rw [val_main_v17_apply, val_main_v16_apply, val_main_v15_apply, val_main_cst_1_apply, val_main_v14_apply,
    val_main_v13_apply, val_main_cst_apply, val_main_v12_apply, val_main_v11_apply, radial_pre]
  exact swish_spelt _

/-- The joined row read in its first, second and third run of 64 columns. -/
theorem joined_lo (r : Fin 800000) (k : Fin 64) :
    val_main_v32 (F := Ideal) x0 x1 x2 x3 x4 x5 x6 (ix2 r (lo k)) = val_main_v24 (F := Ideal) x0 x2 x4 (ix2 r k) := by
  unfold val_main_v32
  generalize val_main_v24 (F := Ideal) x0 x2 x4 = A
  generalize val_main_v31 (F := Ideal) x0 x3 x4 = B
  generalize val_main_v17 (F := Ideal) x1 x5 x6 = C
  exact concatenate_apply_piece (t := S800000x192) 1 [⟨S800000x64, A⟩, ⟨S800000x64, B⟩, ⟨S800000x64, C⟩]
    concatenates_S800000x64_S800000x64_S800000x64_S800000x192_d1
    (ix2 r (lo k)) 0 (by show (0 : Nat) < 3; omega) S800000x64 A rfl rfl 0 rfl (ix2 r k)
    (fun b hb => by match b with | ⟨0, _⟩ => rfl | ⟨1, _⟩ => exact absurd rfl hb)
    (by show 0 + k.val = k.val; omega)

theorem joined_mid (r : Fin 800000) (k : Fin 64) :
    val_main_v32 (F := Ideal) x0 x1 x2 x3 x4 x5 x6 (ix2 r (mid k)) = val_main_v31 (F := Ideal) x0 x3 x4 (ix2 r k) := by
  unfold val_main_v32
  generalize val_main_v24 (F := Ideal) x0 x2 x4 = A
  generalize val_main_v31 (F := Ideal) x0 x3 x4 = B
  generalize val_main_v17 (F := Ideal) x1 x5 x6 = C
  exact concatenate_apply_piece (t := S800000x192) 1 [⟨S800000x64, A⟩, ⟨S800000x64, B⟩, ⟨S800000x64, C⟩]
    concatenates_S800000x64_S800000x64_S800000x64_S800000x192_d1
    (ix2 r (mid k)) 1 (by show (1 : Nat) < 3; omega) S800000x64 B rfl rfl 64 rfl (ix2 r k)
    (fun b hb => by match b with | ⟨0, _⟩ => rfl | ⟨1, _⟩ => exact absurd rfl hb)
    (by show 64 + k.val = 64 + k.val; rfl)

theorem joined_hi (r : Fin 800000) (k : Fin 64) :
    val_main_v32 (F := Ideal) x0 x1 x2 x3 x4 x5 x6 (ix2 r (hi k)) = val_main_v17 (F := Ideal) x1 x5 x6 (ix2 r k) := by
  unfold val_main_v32
  generalize val_main_v24 (F := Ideal) x0 x2 x4 = A
  generalize val_main_v31 (F := Ideal) x0 x3 x4 = B
  generalize val_main_v17 (F := Ideal) x1 x5 x6 = C
  exact concatenate_apply_piece (t := S800000x192) 1 [⟨S800000x64, A⟩, ⟨S800000x64, B⟩, ⟨S800000x64, C⟩]
    concatenates_S800000x64_S800000x64_S800000x64_S800000x192_d1
    (ix2 r (hi k)) 2 (by show (2 : Nat) < 3; omega) S800000x64 C rfl rfl 128 rfl (ix2 r k)
    (fun b hb => by match b with | ⟨0, _⟩ => rfl | ⟨1, _⟩ => exact absurd rfl hb)
    (by show 128 + k.val = 128 + k.val; rfl)

/-- The host's pre-activation is `EdgeFeats.pre` of the gathered rows: the sum over the joined row's 192 columns is the
    three block sums. -/
theorem pre_eq (r : Fin 800000) (q : Fin 64) :
    val_main_v36 (F := Ideal) x0 x1 x2 x3 x4 x5 x6 x7 x8 (ix2 r q)
      = pre (val_main_v24 (F := Ideal) x0 x2 x4) (val_main_v31 (F := Ideal) x0 x3 x4) x1 x5 x6 x7 x8 r q := by
  rw [val_main_v36_apply, val_main_v33_apply, val_main_v35_apply, val_main_v34_apply, sum_three_blocks]
  have el : ∀ k : Fin 192, lidx_main_v33 (ix2 r q) k = ix2 r k := fun k => funext fun a => Fin.ext (by
    match a with | ⟨0, _⟩ => rfl | ⟨1, _⟩ => rfl)
  have er : ∀ k : Fin 192, ridx_main_v33 (ix2 r q) k = ix2 k q := fun k => funext fun a => Fin.ext (by
    match a with | ⟨0, _⟩ => rfl | ⟨1, _⟩ => rfl)
  have eb : idx_main_v34 (idx_main_v35 (ix2 r q)) = ix1 q := funext fun a => Fin.ext (by
    match a with | ⟨0, _⟩ => rfl)
  simp only [el, er, eb, joined_lo, joined_mid, joined_hi, radial_eq]
  rfl

/-- The host's first result is `EdgeFeats.e1` of the gathered rows. -/
theorem result1 :
    val_main_v43 (F := Ideal) x0 x1 x2 x3 x4 x5 x6 x7 x8
      = e1 (val_main_v24 (F := Ideal) x0 x2 x4) (val_main_v31 (F := Ideal) x0 x3 x4) x1 x5 x6 x7 x8 := by
  funext i
  obtain ⟨r, q, rfl⟩ : ∃ (r : Fin 800000) (q : Fin 64), i = ix2 r q := ⟨i 0, i 1, eq_ix2 i⟩
  rw [val_main_v43_apply, val_main_v42_apply, val_main_v41_apply, val_main_cst_7_apply, val_main_v40_apply,
    val_main_v39_apply, val_main_cst_6_apply, val_main_v38_apply, val_main_v37_apply, pre_eq]
  exact swish_spelt _

/-- The host's second result is `EdgeFeats.e2` of the gathered rows. -/
theorem result2 :
    val_main_v45 (F := Ideal) x0 x1 x2 x3 x4 x5 x6 x7 x8 x9
      = e2 (val_main_v24 (F := Ideal) x0 x2 x4) (val_main_v31 (F := Ideal) x0 x3 x4) x1 x5 x6 x7 x8 x9 := by
  funext i
  obtain ⟨r, q, rfl⟩ : ∃ (r : Fin 800000) (q : Fin 64), i = ix2 r q := ⟨i 0, i 1, eq_ix2 i⟩
  rw [val_main_v45_apply, val_main_v44_apply, result1]
  have el : ∀ j : Fin 16, lidx_main_v44 (ix2 r q) j = ix2 r j := fun j => funext fun a => Fin.ext (by
    match a with | ⟨0, _⟩ => rfl | ⟨1, _⟩ => rfl)
  have er : ∀ j : Fin 16, ridx_main_v44 (ix2 r q) j = ix2 j q := fun j => funext fun a => Fin.ext (by
    match a with | ⟨0, _⟩ => rfl | ⟨1, _⟩ => rfl)
  simp only [el, er]
  rfl

end Cert.ReferenceIdeal.Edge

end
-- ==== Proof.LibPlainMatmul.lean ====
import Idealize.ShloMosaic.Lib.ValueIdx
import Idealize.ShloMosaic.PureOps.Ideal.Laws

/-!
# A plain matrix product read at an index

The product of a left operand `[M, K]` and a right operand `[K, N]` into a zero accumulator `[M, N]` — contracting the
left operand's axis 1 with the right operand's axis 0, no batch axis — has, over the extended reals, at `(p, q)` the
element `∑ k, l[p, k] · r[k, q]`: the contraction index is its one coordinate, the left operand's index at `(p, q)`
and `k` is `(p, k)`, the right operand's `(k, q)`.

The statement comes twice: for the record of dimension numbers written out with its well-formedness proof as an
argument (`…_lit`), and for an arbitrary record whose fields are fixed by equations (each `rfl` for a literal record).
-/

noncomputable section

open scoped BigOperators

namespace Idealize.ShloMosaic.PlainMatmul

open Idealize.ShloMosaic Idealize.ShloMosaic.ValueIdx

/-- The dimension numbers of a plain product: `[M, K] · [K, N] → [M, N]`. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The plain product into the zero accumulator, at `(p, q)`, is `∑ k, l[p, k] · r[k, q]`. -/
theorem matmul_plain_lit {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ =>
        show ((plainDims M K N wf).lhsIdx (ix2 p q) _ 0).val = p.val
        unfold DotDims.lhsIdx
        rw [dif_neg (show ¬ (0 : Fin 2) ∈ (plainDims M K N wf).lhsBatch from List.not_mem_nil),
          dif_pos (show (0 : Fin 2) ∈ (plainDims M K N wf).lhsNonContracting from List.mem_singleton.mpr rfl)]
        rfl
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ =>
        show ((plainDims M K N wf).rhsIdx (ix2 p q) _ 1).val = q.val
        unfold DotDims.rhsIdx
        rw [dif_neg (show ¬ (1 : Fin 2) ∈ (plainDims M K N wf).rhsBatch from List.not_mem_nil),
          dif_pos (show (1 : Fin 2) ∈ (plainDims M K N wf).rhsNonContracting from List.mem_singleton.mpr rfl)]
        rfl)
  rw [el, er]

/-- The same for ANY record of dimension numbers of these shapes whose fields are those of a plain product. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at hlc hrc hln hrn hlb hrb
  subst hlc hrc hln hrn hlb hrb
  exact matmul_plain_lit wf prec l r p q

end Idealize.ShloMosaic.PlainMatmul

end
-- ==== Proof.EdgeTile.lean ====
import proofs.«133164_j79542794322611_1_alg».proof.Proof.Gen.KernelIdeal.Skeleton
import proofs.«133164_j79542794322611_1_alg».proof.Proof.EdgeSpec
import proofs.«133164_j79542794322611_1_alg».proof.Proof.LibPlainMatmul
import Idealize.ShloMosaic.Lib.ValueLayout
import Idealize.ShloMosaic.Lib.Pipeline.Value

/-!
# One tile of 4000 edges: what the kernel body stores, element by element

The body works on a tile of 4000 consecutive edges: the tile's rows of the two gathered endpoint arrays (`x0`, `x1`) and
of the radial basis (`x2`), and — whole, the same for every tile — the radial weight and bias (`x3`, `x4`), the three
64-row blocks of the big weight (`x5`, `x6`, `x7`), the bias (`x8`, as a one-row matrix) and the second radial weight (`x9`).
Over the extended reals a change of float format is the identity and a product into the zero accumulator is a plain sum,
so at row `p` and column `q` of the tile it stores

  first store:  swish (((∑ k, x0[p,k]·x5[k,q] + ∑ k, x1[p,k]·x6[k,q]) + ∑ k, swish(∑ j, x2[p,j]·x3[j,k] + x4[0,k])·x7[k,q]) + x8[0,q])
  second store: (∑ j, x2[p,j]·x9[j,q]) · (the first).

`tile_out1_eq` and `tile_out2_eq` then say: if the tile's rows are rows `ρ p` of whole arrays, and the small operands are
the named pieces of the whole weights, these are `EdgeFeats.e1` and `EdgeFeats.e2` of the whole arrays at row `ρ p`.
-/

noncomputable section

open scoped BigOperators

namespace Cert.KernelIdeal.Tile

open Cert.KernelIdeal Cert.KernelIdeal.Gen Idealize.ShloMosaic Idealize.ShloMosaic.ValueIdx EdgeFeats

variable (x0 x1 : FVec Ideal S4000x64 .f32) (x2 : FVec Ideal S4000x16 .f32) (x3 : FVec Ideal S16x64 .f32)
  (x4 : FVec Ideal S1x64 .f32) (x5 x6 x7 : FVec Ideal S64x64 .f32) (x8 : FVec Ideal S1x64 .f32)
  (x9 : FVec Ideal S16x64 .f32)

/-- The logistic function applied to a vector, at one element. -/
theorem logistic_apply {s : Shape} {φ : FTy} (a : FVec Ideal s φ) (i : s.Idx) : logistic a i = Ideal.logistic (a i) := rfl

/-- A `[4000,16]·[16,64]` product into the zero accumulator, at `(p, q)`. -/
theorem prod16 (l : FVec Ideal S4000x16 .bf16) (r : FVec Ideal S16x64 .bf16) (p : Fin 4000) (q : Fin 64) :
    matmul dot_S4000x16_S16x64_S4000x64_1_0_0_1_n_n none l r (constant (F := Ideal) S4000x64 .f32 0x00000000#32) (ix2 p q)
      = ∑ j : Fin 16, l (ix2 p j) * r (ix2 j q) :=
  PlainMatmul.matmul_plain_apply dot_S4000x16_S16x64_S4000x64_1_0_0_1_n_n rfl rfl rfl rfl rfl rfl none l r p q

/-- A `[4000,64]·[64,64]` product into the zero accumulator, at `(p, q)`. -/
theorem prod64 (l : FVec Ideal S4000x64 .bf16) (r : FVec Ideal S64x64 .bf16) (p : Fin 4000) (q : Fin 64) :
    matmul dot_S4000x64_S64x64_S4000x64_1_0_0_1_n_n none l r (constant (F := Ideal) S4000x64 .f32 0x00000000#32) (ix2 p q)
      = ∑ k : Fin 64, l (ix2 p k) * r (ix2 k q) :=
  PlainMatmul.matmul_plain_apply dot_S4000x64_S64x64_S4000x64_1_0_0_1_n_n rfl rfl rfl rfl rfl rfl none l r p q

/-- A one-row matrix spread over the tile's 4000 rows, at `(p, q)`, is the row at `q`. -/
theorem row_spread (b : FVec Ideal S1x64 .f32) (p : Fin 4000) (q : Fin 64) :
    broadcastTo S4000x64 b broadcasts_S1x64_S4000x64 (ix2 p q) = b (ix2 (0 : Fin 1) q) :=
  broadcastTo_1b_ab_apply b broadcasts_S1x64_S4000x64 p q

/-- The tile's hidden radial features. -/
def tileRadial (p : Fin 4000) (k : Fin 64) : EReal :=
  swish ((∑ j : Fin 16, x2 (ix2 p j) * x3 (ix2 j k)) + x4 (ix2 (0 : Fin 1) k))

/-- The tile's pre-activation. -/
def tilePre (p : Fin 4000) (q : Fin 64) : EReal :=
  ((∑ k : Fin 64, x0 (ix2 p k) * x5 (ix2 k q) + ∑ k : Fin 64, x1 (ix2 p k) * x6 (ix2 k q))
    + ∑ k : Fin 64, tileRadial x2 x3 x4 p k * x7 (ix2 k q)) + x8 (ix2 (0 : Fin 1) q)

/-- What the tile stores to the first result, and to the second. -/
def tileOut1 (p : Fin 4000) (q : Fin 64) : EReal := swish (tilePre x0 x1 x2 x3 x4 x5 x6 x7 x8 p q)

def tileOut2 (p : Fin 4000) (q : Fin 64) : EReal :=
  (∑ j : Fin 16, x2 (ix2 p j) * x9 (ix2 j q)) * tileOut1 x0 x1 x2 x3 x4 x5 x6 x7 x8 p q

/-- The body's pre-activation value, at `(p, q)`. -/
theorem pre_apply (p : Fin 4000) (q : Fin 64) :
    k0_pay4 (F := Ideal) x2 x3 x4 x0 x1 x5 x6 x7 x8 (ix2 p q) = tilePre x0 x1 x2 x3 x4 x5 x6 x7 x8 p q := by
  unfold k0_pay4 k0_pay3 tilePre tileRadial swish
  simp only [addf_apply, mulf_apply, logistic_apply, prod16, prod64, row_spread, truncf_apply, shapeCast_self]

/-- What the first store writes, at `(p, q)`. -/
theorem store1_apply (p : Fin 4000) (q : Fin 64) :
    k0_pay1 (F := Ideal) (k0_pay4 x2 x3 x4 x0 x1 x5 x6 x7 x8) (k0_pay5 x2 x3 x4 x0 x1 x5 x6 x7 x8) (ix2 p q)
      = tileOut1 x0 x1 x2 x3 x4 x5 x6 x7 x8 p q := by
  unfold k0_pay1 k0_pay5 tileOut1 swish
  simp only [mulf_apply, logistic_apply, pre_apply]

/-- What the second store writes, at `(p, q)`. -/
theorem store2_apply (p : Fin 4000) (q : Fin 64) :
    k0_pay2 (F := Ideal) (k0_pay3 x2) (k0_pay4 x2 x3 x4 x0 x1 x5 x6 x7 x8) (k0_pay5 x2 x3 x4 x0 x1 x5 x6 x7 x8) x9 (ix2 p q)
      = tileOut2 x0 x1 x2 x3 x4 x5 x6 x7 x8 x9 p q := by
  unfold k0_pay2 k0_pay3 tileOut2
  simp only [mulf_apply, prod16, truncf_apply, store1_apply]

section Whole

variable (xi xj : Mat 800000 64) (rbf : Mat 800000 16) (W0 : Mat 16 64) (b0 : Row 64) (W : Mat 192 64) (b : Row 64)
  (W1 : Mat 16 64) (ρ : Fin 4000 → Fin 800000)

/-- The tile's pre-activation is the whole arrays' at row `ρ p`, when the tile's operands are those rows and the named
    pieces of the weights. -/
theorem tile_pre_eq
    (h0 : ∀ (p : Fin 4000) (k : Fin 64), x0 (ix2 p k) = xi (ix2 (ρ p) k))
    (h1 : ∀ (p : Fin 4000) (k : Fin 64), x1 (ix2 p k) = xj (ix2 (ρ p) k))
    (h2 : ∀ (p : Fin 4000) (j : Fin 16), x2 (ix2 p j) = rbf (ix2 (ρ p) j))
    (h3 : ∀ (j : Fin 16) (k : Fin 64), x3 (ix2 j k) = W0 (ix2 j k))
    (h4 : ∀ k : Fin 64, x4 (ix2 (0 : Fin 1) k) = b0 (ix1 k))
    (h5 : ∀ k q : Fin 64, x5 (ix2 k q) = W (ix2 (lo k) q))
    (h6 : ∀ k q : Fin 64, x6 (ix2 k q) = W (ix2 (mid k) q))
    (h7 : ∀ k q : Fin 64, x7 (ix2 k q) = W (ix2 (hi k) q))
    (h8 : ∀ q : Fin 64, x8 (ix2 (0 : Fin 1) q) = b (ix1 q))
    (p : Fin 4000) (q : Fin 64) :
    tilePre x0 x1 x2 x3 x4 x5 x6 x7 x8 p q = pre xi xj rbf W0 b0 W b (ρ p) q := by
  unfold tilePre tileRadial pre radial
  simp only [h0, h1, h2, h3, h4, h5, h6, h7, h8]

/-- So the tile's first stored value is `e1` of the whole arrays at row `ρ p`. -/
theorem tile_out1_eq
    (h0 : ∀ (p : Fin 4000) (k : Fin 64), x0 (ix2 p k) = xi (ix2 (ρ p) k))
    (h1 : ∀ (p : Fin 4000) (k : Fin 64), x1 (ix2 p k) = xj (ix2 (ρ p) k))
    (h2 : ∀ (p : Fin 4000) (j : Fin 16), x2 (ix2 p j) = rbf (ix2 (ρ p) j))
    (h3 : ∀ (j : Fin 16) (k : Fin 64), x3 (ix2 j k) = W0 (ix2 j k))
    (h4 : ∀ k : Fin 64, x4 (ix2 (0 : Fin 1) k) = b0 (ix1 k))
    (h5 : ∀ k q : Fin 64, x5 (ix2 k q) = W (ix2 (lo k) q))
    (h6 : ∀ k q : Fin 64, x6 (ix2 k q) = W (ix2 (mid k) q))
    (h7 : ∀ k q : Fin 64, x7 (ix2 k q) = W (ix2 (hi k) q))
    (h8 : ∀ q : Fin 64, x8 (ix2 (0 : Fin 1) q) = b (ix1 q))
    (p : Fin 4000) (q : Fin 64) :
    tileOut1 x0 x1 x2 x3 x4 x5 x6 x7 x8 p q = e1 xi xj rbf W0 b0 W b (ix2 (ρ p) q) := by
  unfold tileOut1
  rw [tile_pre_eq x0 x1 x2 x3 x4 x5 x6 x7 x8 xi xj rbf W0 b0 W b ρ h0 h1 h2 h3 h4 h5 h6 h7 h8 p q]
  rfl

/-- And its second stored value `e2`, when the last operand is the second radial weight. -/
theorem tile_out2_eq
    (h0 : ∀ (p : Fin 4000) (k : Fin 64), x0 (ix2 p k) = xi (ix2 (ρ p) k))
    (h1 : ∀ (p : Fin 4000) (k : Fin 64), x1 (ix2 p k) = xj (ix2 (ρ p) k))
    (h2 : ∀ (p : Fin 4000) (j : Fin 16), x2 (ix2 p j) = rbf (ix2 (ρ p) j))
    (h3 : ∀ (j : Fin 16) (k : Fin 64), x3 (ix2 j k) = W0 (ix2 j k))
    (h4 : ∀ k : Fin 64, x4 (ix2 (0 : Fin 1) k) = b0 (ix1 k))
    (h5 : ∀ k q : Fin 64, x5 (ix2 k q) = W (ix2 (lo k) q))
    (h6 : ∀ k q : Fin 64, x6 (ix2 k q) = W (ix2 (mid k) q))
    (h7 : ∀ k q : Fin 64, x7 (ix2 k q) = W (ix2 (hi k) q))
    (h8 : ∀ q : Fin 64, x8 (ix2 (0 : Fin 1) q) = b (ix1 q))
    (h9 : ∀ (j : Fin 16) (q : Fin 64), x9 (ix2 j q) = W1 (ix2 j q))
    (p : Fin 4000) (q : Fin 64) :
    tileOut2 x0 x1 x2 x3 x4 x5 x6 x7 x8 x9 p q = e2 xi xj rbf W0 b0 W b W1 (ix2 (ρ p) q) := by
  unfold tileOut2
  rw [tile_out1_eq x0 x1 x2 x3 x4 x5 x6 x7 x8 xi xj rbf W0 b0 W b ρ h0 h1 h2 h3 h4 h5 h6 h7 h8 p q]
  simp only [h2, h9]
  rfl

end Whole

end Cert.KernelIdeal.Tile

end
-- ==== Proof.EdgeBlocks.lean ====
import proofs.«133164_j79542794322611_1_alg».proof.Proof.Gen.KernelIdeal.Frame
import proofs.«133164_j79542794322611_1_alg».proof.Proof.EdgeSpec
import Idealize.ShloMosaic.Lib.StableHlo.Run
import Idealize.ShloMosaic.Lib.ValueLayout
import Idealize.ShloMosaic.Lib.Pipeline.Value

/-!
# The arrays the region finds, and each tile's blocks of them

The grid has 200 points; point `t` works on edges `4000 t … 4000 t + 3999`. The three per-edge arrays (the two gathered
endpoint arrays and the radial basis) are cut into 200 row blocks of 4000, block `t` at point `t`; the seven small
operands are one block each, the same at every point. So row `p` of a per-edge block at point `t` is row `4000 t + p` of
its array, and a small operand's block is its array.

Three of the small operands are written by the host before the region: the two biases, each a 64-vector turned into a
one-row matrix, and the three 64-row blocks of the `[192, 64]` weight, rows `0…63`, `64…127` and `128…191`. The two
gathered arrays are also the host's; they are named here and never opened.
-/

noncomputable section

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx EdgeFeats

variable (m : (ℓ : Loc nD τ sig) → Buf (Elt Ideal) ℓ)

/-! ## The index maps, decided over the 200 points -/

/-- The per-edge windows (inputs 0, 1, 2 and both outputs) take row block `t` at point `t`. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- The small operands' windows take their one block at every point. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Edge `4000 t + p`: row `p` of the tile at point `t`. -/
def rowOf (t : Fin cfg0.N) (p : Fin 4000) : Fin 800000 :=
  ⟨4000 * t.val + p.val, by
    have h : t.val < 200 := lt_of_lt_of_eq t.isLt N_0
    omega⟩

theorem rowOf_val (t : Fin cfg0.N) (p : Fin 4000) : (rowOf t p).val = 4000 * t.val + p.val := rfl

/-! ## The arrays as the region finds them -/

/-- The endpoint rows gathered for each edge's first and second node. -/
abbrev arr0 (c : Dev nD) : Mat 800000 64 := V m c main_v13
abbrev arr1 (c : Dev nD) : Mat 800000 64 := V m c main_v20
/-- The radial basis and the first radial weight, as launched. -/
abbrev arr2 (c : Dev nD) : Mat 800000 16 := V m c main_arg1
abbrev arr3 (c : Dev nD) : Mat 16 64 := V m c main_arg5
/-- The first bias as a one-row matrix. -/
abbrev arr4 (c : Dev nD) : Mat 1 64 := V m c main_v24
/-- The three row blocks of the big weight. -/
abbrev arr5 (c : Dev nD) : Mat 64 64 := V m c main_v21
abbrev arr6 (c : Dev nD) : Mat 64 64 := V m c main_v22
abbrev arr7 (c : Dev nD) : Mat 64 64 := V m c main_v23
/-- The second bias as a one-row matrix, and the second radial weight. -/
abbrev arr8 (c : Dev nD) : Mat 1 64 := V m c main_v25
abbrev arr9 (c : Dev nD) : Mat 16 64 := V m c main_arg9

/-! ## Each window's block at a point -/

/-- Row `p` of input window 0's block at tile `t` is row `4000 t + p` of its array. -/
theorem blk0_apply (c : Dev nD) (t : Fin cfg0.N) (p : Fin 4000) (k : Fin 64) :
    (iblk m c 0 t : FVec Ideal S4000x64 .f32) (ix2 p k) = arr0 m c (ix2 (rowOf t p) k) := by
  obtain ⟨e0, e1⟩ := (idx_rows t).1
  unfold iblk arr0
  rw [View.read_apply]
  refine congrArg (V m c main_v13) (funext fun a => Fin.ext ?_)
  match a with
  | ⟨0, _⟩ => show win0_0.index t (0 : Fin 2) * 4000 + 1 * p.val = 4000 * t.val + p.val; rw [e0]; omega
  | ⟨1, _⟩ => show win0_0.index t (1 : Fin 2) * 64 + 1 * k.val = k.val; rw [e1]; omega

/-- Row `p` of input window 1's block at tile `t` is row `4000 t + p` of its array. -/
theorem blk1_apply (c : Dev nD) (t : Fin cfg0.N) (p : Fin 4000) (k : Fin 64) :
    (iblk m c 1 t : FVec Ideal S4000x64 .f32) (ix2 p k) = arr1 m c (ix2 (rowOf t p) k) := by
  obtain ⟨e0, e1⟩ := (idx_rows t).2.1
  unfold iblk arr1
  rw [View.read_apply]
  refine congrArg (V m c main_v20) (funext fun a => Fin.ext ?_)
  match a with
  | ⟨0, _⟩ => show win0_1.index t (0 : Fin 2) * 4000 + 1 * p.val = 4000 * t.val + p.val; rw [e0]; omega
  | ⟨1, _⟩ => show win0_1.index t (1 : Fin 2) * 64 + 1 * k.val = k.val; rw [e1]; omega

/-- Row `p` of input window 2's block at tile `t` is row `4000 t + p` of its array. -/
theorem blk2_apply (c : Dev nD) (t : Fin cfg0.N) (p : Fin 4000) (k : Fin 16) :
    (iblk m c 2 t : FVec Ideal S4000x16 .f32) (ix2 p k) = arr2 m c (ix2 (rowOf t p) k) := by
  obtain ⟨e0, e1⟩ := (idx_rows t).2.2.1
  unfold iblk arr2
  rw [View.read_apply]
  refine congrArg (V m c main_arg1) (funext fun a => Fin.ext ?_)
  match a with
  | ⟨0, _⟩ => show win0_2.index t (0 : Fin 2) * 4000 + 1 * p.val = 4000 * t.val + p.val; rw [e0]; omega
  | ⟨1, _⟩ => show win0_2.index t (1 : Fin 2) * 16 + 1 * k.val = k.val; rw [e1]; omega

/-- Input window 3's block is its whole array at every tile. -/
theorem blk3_apply (c : Dev nD) (t : Fin cfg0.N) (a : Fin 16) (b : Fin 64) :
    (iblk m c 3 t : FVec Ideal S16x64 .f32) (ix2 a b) = arr3 m c (ix2 a b) := by
  obtain ⟨e0, e1⟩ := (idx_whole t).1
  unfold iblk arr3
  rw [View.read_apply]
  refine congrArg (V m c main_arg5) (funext fun d => Fin.ext ?_)
  match d with
  | ⟨0, _⟩ => show win0_3.index t (0 : Fin 2) * 16 + 1 * a.val = a.val; rw [e0]; omega
  | ⟨1, _⟩ => show win0_3.index t (1 : Fin 2) * 64 + 1 * b.val = b.val; rw [e1]; omega

/-- Input window 4's block is its whole array at every tile. -/
theorem blk4_apply (c : Dev nD) (t : Fin cfg0.N) (a : Fin 1) (b : Fin 64) :
    (iblk m c 4 t : FVec Ideal S1x64 .f32) (ix2 a b) = arr4 m c (ix2 a b) := by
  obtain ⟨e0, e1⟩ := (idx_whole t).2.1
  unfold iblk arr4
  rw [View.read_apply]
  refine congrArg (V m c main_v24) (funext fun d => Fin.ext ?_)
  match d with
  | ⟨0, _⟩ => show win0_4.index t (0 : Fin 2) * 1 + 1 * a.val = a.val; rw [e0]; omega
  | ⟨1, _⟩ => show win0_4.index t (1 : Fin 2) * 64 + 1 * b.val = b.val; rw [e1]; omega

/-- Input window 5's block is its whole array at every tile. -/
theorem blk5_apply (c : Dev nD) (t : Fin cfg0.N) (a : Fin 64) (b : Fin 64) :
    (iblk m c 5 t : FVec Ideal S64x64 .f32) (ix2 a b) = arr5 m c (ix2 a b) := by
  obtain ⟨e0, e1⟩ := (idx_whole t).2.2.1
  unfold iblk arr5
  rw [View.read_apply]
  refine congrArg (V m c main_v21) (funext fun d => Fin.ext ?_)
  match d with
  | ⟨0, _⟩ => show win0_5.index t (0 : Fin 2) * 64 + 1 * a.val = a.val; rw [e0]; omega
  | ⟨1, _⟩ => show win0_5.index t (1 : Fin 2) * 64 + 1 * b.val = b.val; rw [e1]; omega

/-- Input window 6's block is its whole array at every tile. -/
theorem blk6_apply (c : Dev nD) (t : Fin cfg0.N) (a : Fin 64) (b : Fin 64) :
    (iblk m c 6 t : FVec Ideal S64x64 .f32) (ix2 a b) = arr6 m c (ix2 a b) := by
  obtain ⟨e0, e1⟩ := (idx_whole t).2.2.2.1
  unfold iblk arr6
  rw [View.read_apply]
  refine congrArg (V m c main_v22) (funext fun d => Fin.ext ?_)
  match d with
  | ⟨0, _⟩ => show win0_6.index t (0 : Fin 2) * 64 + 1 * a.val = a.val; rw [e0]; omega
  | ⟨1, _⟩ => show win0_6.index t (1 : Fin 2) * 64 + 1 * b.val = b.val; rw [e1]; omega

/-- Input window 7's block is its whole array at every tile. -/
theorem blk7_apply (c : Dev nD) (t : Fin cfg0.N) (a : Fin 64) (b : Fin 64) :
    (iblk m c 7 t : FVec Ideal S64x64 .f32) (ix2 a b) = arr7 m c (ix2 a b) := by
  obtain ⟨e0, e1⟩ := (idx_whole t).2.2.2.2.1
  unfold iblk arr7
  rw [View.read_apply]
  refine congrArg (V m c main_v23) (funext fun d => Fin.ext ?_)
  match d with
  | ⟨0, _⟩ => show win0_7.index t (0 : Fin 2) * 64 + 1 * a.val = a.val; rw [e0]; omega
  | ⟨1, _⟩ => show win0_7.index t (1 : Fin 2) * 64 + 1 * b.val = b.val; rw [e1]; omega

/-- Input window 8's block is its whole array at every tile. -/
theorem blk8_apply (c : Dev nD) (t : Fin cfg0.N) (a : Fin 1) (b : Fin 64) :
    (iblk m c 8 t : FVec Ideal S1x64 .f32) (ix2 a b) = arr8 m c (ix2 a b) := by
  obtain ⟨e0, e1⟩ := (idx_whole t).2.2.2.2.2.1
  unfold iblk arr8
  rw [View.read_apply]
  refine congrArg (V m c main_v25) (funext fun d => Fin.ext ?_)
  match d with
  | ⟨0, _⟩ => show win0_8.index t (0 : Fin 2) * 1 + 1 * a.val = a.val; rw [e0]; omega
  | ⟨1, _⟩ => show win0_8.index t (1 : Fin 2) * 64 + 1 * b.val = b.val; rw [e1]; omega

/-- Input window 9's block is its whole array at every tile. -/
theorem blk9_apply (c : Dev nD) (t : Fin cfg0.N) (a : Fin 16) (b : Fin 64) :
    (iblk m c 9 t : FVec Ideal S16x64 .f32) (ix2 a b) = arr9 m c (ix2 a b) := by
  obtain ⟨e0, e1⟩ := (idx_whole t).2.2.2.2.2.2
  unfold iblk arr9
  rw [View.read_apply]
  refine congrArg (V m c main_arg9) (funext fun d => Fin.ext ?_)
  match d with
  | ⟨0, _⟩ => show win0_9.index t (0 : Fin 2) * 16 + 1 * a.val = a.val; rw [e0]; omega
  | ⟨1, _⟩ => show win0_9.index t (1 : Fin 2) * 64 + 1 * b.val = b.val; rw [e1]; omega

/-! ## The host-written small operands, read at an index -/

/-- The bias as a one-row matrix: its entry `(0, k)` is entry `k` of the bias as launched. -/
theorem arr4_apply (c : Dev nD) (k : Fin 64) :
    arr4 m c (ix2 (0 : Fin 1) k) = (m ((c : Thread nD τ).loc main_arg6) : Row 64) (ix1 k) := by
  have e : (V m c main_v24 : S1x64.Idx → EReal)
      = shapeCast S1x64 (m ((c : Thread nD τ).loc main_arg6) : S64.Idx → EReal) shapeCasts_S64_S1x64 := by
    dsimp only [Gen.V, Gen.hostOps0]; after_results <;> rfl
  show (V m c main_v24 : S1x64.Idx → EReal) (ix2 (0 : Fin 1) k) = _
  rw [e]
  exact shapeCast_a_1a_apply _ shapeCasts_S64_S1x64 0 k

/-- The bias as a one-row matrix: its entry `(0, k)` is entry `k` of the bias as launched. -/
theorem arr8_apply (c : Dev nD) (k : Fin 64) :
    arr8 m c (ix2 (0 : Fin 1) k) = (m ((c : Thread nD τ).loc main_arg8) : Row 64) (ix1 k) := by
  have e : (V m c main_v25 : S1x64.Idx → EReal)
      = shapeCast S1x64 (m ((c : Thread nD τ).loc main_arg8) : S64.Idx → EReal) shapeCasts_S64_S1x64 := by
    dsimp only [Gen.V, Gen.hostOps0]; after_results <;> rfl
  show (V m c main_v25 : S1x64.Idx → EReal) (ix2 (0 : Fin 1) k) = _
  rw [e]
  exact shapeCast_a_1a_apply _ shapeCasts_S64_S1x64 0 k

/-- Rows `0…63` of the big weight: row `k` of this block is row `0 + k` of the weight as launched. -/
theorem arr5_apply (c : Dev nD) (k q : Fin 64) :
    arr5 m c (ix2 k q) = (m ((c : Thread nD τ).loc main_arg7) : Mat 192 64) (ix2 (lo k) q) := by
  have e : (V m c main_v21 : S64x64.Idx → EReal)
      = extractStridedSlice S64x64 ![0, 0] (m ((c : Thread nD τ).loc main_arg7) : S192x64.Idx → EReal) slices_S192x64_S64x64_0_0 := by
    dsimp only [Gen.V, Gen.hostOps0]; after_results <;> rfl
  show (V m c main_v21 : S64x64.Idx → EReal) (ix2 k q) = _
  rw [e]
  exact slice2_axis0_apply 0 _ slices_S192x64_S64x64_0_0 k q (lo k) (by show k.val = 0 + k.val; omega)

/-- Rows `64…127` of the big weight: row `k` of this block is row `64 + k` of the weight as launched. -/
theorem arr6_apply (c : Dev nD) (k q : Fin 64) :
    arr6 m c (ix2 k q) = (m ((c : Thread nD τ).loc main_arg7) : Mat 192 64) (ix2 (mid k) q) := by
  have e : (V m c main_v22 : S64x64.Idx → EReal)
      = extractStridedSlice S64x64 ![64, 0] (m ((c : Thread nD τ).loc main_arg7) : S192x64.Idx → EReal) slices_S192x64_S64x64_64_0 := by
    dsimp only [Gen.V, Gen.hostOps0]; after_results <;> rfl
  show (V m c main_v22 : S64x64.Idx → EReal) (ix2 k q) = _
  rw [e]
  exact slice2_axis0_apply 64 _ slices_S192x64_S64x64_64_0 k q (mid k) (by show 64 + k.val = 64 + k.val; omega)

/-- Rows `128…191` of the big weight: row `k` of this block is row `128 + k` of the weight as launched. -/
theorem arr7_apply (c : Dev nD) (k q : Fin 64) :
    arr7 m c (ix2 k q) = (m ((c : Thread nD τ).loc main_arg7) : Mat 192 64) (ix2 (hi k) q) := by
  have e : (V m c main_v23 : S64x64.Idx → EReal)
      = extractStridedSlice S64x64 ![128, 0] (m ((c : Thread nD τ).loc main_arg7) : S192x64.Idx → EReal) slices_S192x64_S64x64_128_0 := by
    dsimp only [Gen.V, Gen.hostOps0]; after_results <;> rfl
  show (V m c main_v23 : S64x64.Idx → EReal) (ix2 k q) = _
  rw [e]
  exact slice2_axis0_apply 128 _ slices_S192x64_S64x64_128_0 k q (hi k) (by show 128 + k.val = 128 + k.val; omega)

/-- The operands no host operation writes are as launched. -/
theorem arr2_eq (c : Dev nD) : arr2 m c = (m ((c : Thread nD τ).loc main_arg1) : Mat 800000 16) := V_main_arg1 m c
theorem arr3_eq (c : Dev nD) : arr3 m c = (m ((c : Thread nD τ).loc main_arg5) : Mat 16 64) := V_main_arg5 m c
theorem arr9_eq (c : Dev nD) : arr9 m c = (m ((c : Thread nD τ).loc main_arg9) : Mat 16 64) := V_main_arg9 m c

end Cert.KernelIdeal.Blocks

end
-- ==== Proof.EdgeValue.lean ====
import proofs.«133164_j79542794322611_1_alg».proof.Proof.Gen.KernelIdeal.Value
import proofs.«133164_j79542794322611_1_alg».proof.Proof.EdgeTile
import proofs.«133164_j79542794322611_1_alg».proof.Proof.EdgeBlocks

/-!
# The kernel's two result arrays

Point `t` of the grid writes back block `t` — rows `4000 t … 4000 t + 3999` — of each result array, and what it writes is
the tile's body (`Tile.store1_apply`, `Tile.store2_apply`) of the point's blocks. Those blocks are rows of the arrays the
region finds and the named pieces of the weights (`Blocks`), so the tile's values are `EdgeFeats.e1` and `EdgeFeats.e2` of
the whole arrays at the rows the block covers (`Tile.tile_out1_eq`, `Tile.tile_out2_eq`): each point writes a block of ONE function of the
arrays. The 200 blocks tile the 800000 rows, so after the run each result array is that function.
-/

noncomputable section

open scoped BigOperators

namespace Cert.KernelIdeal.Edge

open Cert.KernelIdeal Cert.KernelIdeal.Gen Cert.KernelIdeal.Value Cert.KernelIdeal.Tile Cert.KernelIdeal.Blocks
open Idealize.ShloMosaic Idealize.ShloMosaic.TcCoe Idealize.SL.Sem Idealize.ShloMosaic.ValueIdx EdgeFeats
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the body leaves in each output buffer, as a function of the tile's blocks -/

variable (x0 x1 : FVec Ideal S4000x64 .f32) (x2 : FVec Ideal S4000x16 .f32) (x3 : FVec Ideal S16x64 .f32)
  (x4 : FVec Ideal S1x64 .f32) (x5 x6 x7 : FVec Ideal S64x64 .f32) (x8 : FVec Ideal S1x64 .f32)
  (x9 : FVec Ideal S16x64 .f32)

theorem out10_eq : out0_10 (F := Ideal) x0 x1 x2 x3 x4 x5 x6 x7 x8 x9
    = fun j : S4000x64.Idx => tileOut1 x0 x1 x2 x3 x4 x5 x6 x7 x8 (j 0) (j 1) := by
  unfold out0_10
  rw [View.canon_unit_zero hz]
  simp only [View.ld_unit_zero (S := S4000x64) hz, View.ld_unit_zero (S := S4000x16) hz, View.ld_unit_zero (S := S16x64) hz,
    View.ld_unit_zero (S := S1x64) hz, View.ld_unit_zero (S := S64x64) hz]
  funext j
  obtain ⟨p, q, rfl⟩ : ∃ (p : Fin 4000) (q : Fin 64), j = ix2 p q := ⟨j 0, j 1, eq_ix2 j⟩
  exact store1_apply x0 x1 x2 x3 x4 x5 x6 x7 x8 p q

theorem out11_eq : out0_11 (F := Ideal) x0 x1 x2 x3 x4 x5 x6 x7 x8 x9
    = fun j : S4000x64.Idx => tileOut2 x0 x1 x2 x3 x4 x5 x6 x7 x8 x9 (j 0) (j 1) := by
  unfold out0_11
  rw [View.canon_unit_zero hz]
  simp only [View.ld_unit_zero (S := S4000x64) hz, View.ld_unit_zero (S := S4000x16) hz, View.ld_unit_zero (S := S16x64) hz,
    View.ld_unit_zero (S := S1x64) hz, View.ld_unit_zero (S := S64x64) hz]
  funext j
  obtain ⟨p, q, rfl⟩ : ∃ (p : Fin 4000) (q : Fin 64), j = ix2 p q := ⟨j 0, j 1, eq_ix2 j⟩
  exact store2_apply x0 x1 x2 x3 x4 x5 x6 x7 x8 x9 p q

/-! ## The result arrays as functions of the arrays the region finds -/

/-- The first result: `e₁` of the gathered rows, the radial basis and the weights. -/
abbrev res1 (c : Dev nD) : Mat 800000 64 :=
  e1 (arr0 m c) (arr1 m c) (arr2 m c) (arr3 m c) (m ((c : Thread nD τ).loc main_arg6)) (m ((c : Thread nD τ).loc main_arg7))
    (m ((c : Thread nD τ).loc main_arg8))

/-- The second result: `e₂` of the same and the second radial weight. -/
abbrev res2 (c : Dev nD) : Mat 800000 64 :=
  e2 (arr0 m c) (arr1 m c) (arr2 m c) (arr3 m c) (m ((c : Thread nD τ).loc main_arg6)) (m ((c : Thread nD τ).loc main_arg7))
    (m ((c : Thread nD τ).loc main_arg8)) (arr9 m c)

/-- An edge-feature index is in point `t`'s block of output one iff each coordinate is in the block's range. -/
theorem mem_blk10 (t : Fin cfg0.N) (i : S800000x64.Idx) :
    i ∈ ((cfg0.win 10).blk t).view.set ↔ ∀ a : Fin 2, win0_10.index t a * S4000x64.size a ≤ (i a).val
      ∧ (i a).val < win0_10.index t a * S4000x64.size a + S4000x64.size a := by
  show i ∈ ((View.whole main_v26_0).slice (win0_10.rect t)).set ↔ _
  rw [View.set_slice_whole, Rect.mem_set_unit]
  exact Iff.rfl

/-- Every index is in the block of the point its row falls in: the 200 blocks of 4000 rows tile the 800000 rows. -/
theorem cover10 (i : S800000x64.Idx) :
    ∃ t : Fin cfg0.N, (cfg0.win 10).flush t = true ∧ i ∈ ((cfg0.win 10).blk t).view.set := by
  have hi0 : (i 0).val < 800000 := (i 0).isLt
  have hi1 : (i 1).val < 64 := (i 1).isLt
  have hN : cfg0.N = 200 := N_0
  have ht : (i 0).val / 4000 < cfg0.N := by rw [hN]; omega
  obtain ⟨e0, e1⟩ := (idx_rows ⟨(i 0).val / 4000, ht⟩).2.2.2.1
  refine ⟨⟨(i 0).val / 4000, ht⟩, flush0_10 _, ?_⟩
  rw [mem_blk10]
  intro a
  match a with
  | ⟨0, _⟩ =>
    show win0_10.index ⟨(i 0).val / 4000, ht⟩ (0 : Fin 2) * 4000 ≤ (i 0).val
      ∧ (i 0).val < win0_10.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_10.index ⟨(i 0).val / 4000, ht⟩ (1 : Fin 2) * 64 ≤ (i 1).val
      ∧ (i 1).val < win0_10.index ⟨(i 0).val / 4000, ht⟩ (1 : Fin 2) * 64 + 64
    rw [e1]; omega

/-- Where an element of point `t`'s block sits in the array: row `4000 t + p`, the same column. -/
theorem emb10 (t : Fin cfg0.N) (p : Fin 4000) (q : Fin 64) :
    ((cfg0.win 10).blk t).view.emb (ix2 p q) = (ix2 (rowOf t p) q : S800000x64.Idx) := by
  obtain ⟨e0, e1⟩ := (idx_rows t).2.2.2.1
  funext a
  apply Fin.ext
  match a with
  | ⟨0, _⟩ => show win0_10.index t (0 : Fin 2) * 4000 + 1 * p.val = 4000 * t.val + p.val; rw [e0]; omega
  | ⟨1, _⟩ => show win0_10.index t (1 : Fin 2) * 64 + 1 * q.val = q.val; rw [e1]; omega

/-- An edge-feature index is in point `t`'s block of output two iff each coordinate is in the block's range. -/
theorem mem_blk11 (t : Fin cfg0.N) (i : S800000x64.Idx) :
    i ∈ ((cfg0.win 11).blk t).view.set ↔ ∀ a : Fin 2, win0_11.index t a * S4000x64.size a ≤ (i a).val
      ∧ (i a).val < win0_11.index t a * S4000x64.size a + S4000x64.size a := by
  show i ∈ ((View.whole main_v26_1).slice (win0_11.rect t)).set ↔ _
  rw [View.set_slice_whole, Rect.mem_set_unit]
  exact Iff.rfl

/-- Every index is in the block of the point its row falls in: the 200 blocks of 4000 rows tile the 800000 rows. -/
theorem cover11 (i : S800000x64.Idx) :
    ∃ t : Fin cfg0.N, (cfg0.win 11).flush t = true ∧ i ∈ ((cfg0.win 11).blk t).view.set := by
  have hi0 : (i 0).val < 800000 := (i 0).isLt
  have hi1 : (i 1).val < 64 := (i 1).isLt
  have hN : cfg0.N = 200 := N_0
  have ht : (i 0).val / 4000 < cfg0.N := by rw [hN]; omega
  obtain ⟨e0, e1⟩ := (idx_rows ⟨(i 0).val / 4000, ht⟩).2.2.2.2
  refine ⟨⟨(i 0).val / 4000, ht⟩, flush0_11 _, ?_⟩
  rw [mem_blk11]
  intro a
  match a with
  | ⟨0, _⟩ =>
    show win0_11.index ⟨(i 0).val / 4000, ht⟩ (0 : Fin 2) * 4000 ≤ (i 0).val
      ∧ (i 0).val < win0_11.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_11.index ⟨(i 0).val / 4000, ht⟩ (1 : Fin 2) * 64 ≤ (i 1).val
      ∧ (i 1).val < win0_11.index ⟨(i 0).val / 4000, ht⟩ (1 : Fin 2) * 64 + 64
    rw [e1]; omega

/-- Where an element of point `t`'s block sits in the array: row `4000 t + p`, the same column. -/
theorem emb11 (t : Fin cfg0.N) (p : Fin 4000) (q : Fin 64) :
    ((cfg0.win 11).blk t).view.emb (ix2 p q) = (ix2 (rowOf t p) q : S800000x64.Idx) := by
  obtain ⟨e0, e1⟩ := (idx_rows t).2.2.2.2
  funext a
  apply Fin.ext
  match a with
  | ⟨0, _⟩ => show win0_11.index t (0 : Fin 2) * 4000 + 1 * p.val = 4000 * t.val + p.val; rw [e0]; omega
  | ⟨1, _⟩ => show win0_11.index t (1 : Fin 2) * 64 + 1 * q.val = q.val; rw [e1]; omega

/-- The tile's first stored value at point `t` is `res1` at the row the block covers. -/
theorem out1_at (c : Dev nD) (t : Fin cfg0.N) (p : Fin 4000) (q : Fin 64) :
    tileOut1 (iblk m c 0 t) (iblk m c 1 t) (iblk m c 2 t) (iblk m c 3 t) (iblk m c 4 t) (iblk m c 5 t) (iblk m c 6 t) (iblk m c 7 t) (iblk m c 8 t) p q = res1 m c (ix2 (rowOf t p) q) :=
  tile_out1_eq (iblk m c 0 t) (iblk m c 1 t) (iblk m c 2 t) (iblk m c 3 t) (iblk m c 4 t) (iblk m c 5 t) (iblk m c 6 t) (iblk m c 7 t) (iblk m c 8 t)
      (arr0 m c) (arr1 m c) (arr2 m c) (arr3 m c) (m ((c : Thread nD τ).loc main_arg6))
      (m ((c : Thread nD τ).loc main_arg7)) (m ((c : Thread nD τ).loc main_arg8)) (rowOf t)
      (blk0_apply m c t) (blk1_apply m c t) (blk2_apply m c t) (blk3_apply m c t)
      (fun k => (blk4_apply m c t 0 k).trans (arr4_apply m c k))
      (fun k q => (blk5_apply m c t k q).trans (arr5_apply m c k q))
      (fun k q => (blk6_apply m c t k q).trans (arr6_apply m c k q))
      (fun k q => (blk7_apply m c t k q).trans (arr7_apply m c k q))
      (fun q => (blk8_apply m c t 0 q).trans (arr8_apply m c q)) p q

/-- The tile's second stored value at point `t` is `res2` there. -/
theorem out2_at (c : Dev nD) (t : Fin cfg0.N) (p : Fin 4000) (q : Fin 64) :
    tileOut2 (iblk m c 0 t) (iblk m c 1 t) (iblk m c 2 t) (iblk m c 3 t) (iblk m c 4 t) (iblk m c 5 t) (iblk m c 6 t) (iblk m c 7 t) (iblk m c 8 t) (iblk m c 9 t) p q = res2 m c (ix2 (rowOf t p) q) :=
  tile_out2_eq (iblk m c 0 t) (iblk m c 1 t) (iblk m c 2 t) (iblk m c 3 t) (iblk m c 4 t) (iblk m c 5 t) (iblk m c 6 t) (iblk m c 7 t) (iblk m c 8 t) (iblk m c 9 t)
      (arr0 m c) (arr1 m c) (arr2 m c) (arr3 m c) (m ((c : Thread nD τ).loc main_arg6))
      (m ((c : Thread nD τ).loc main_arg7)) (m ((c : Thread nD τ).loc main_arg8)) (arr9 m c) (rowOf t)
      (blk0_apply m c t) (blk1_apply m c t) (blk2_apply m c t) (blk3_apply m c t)
      (fun k => (blk4_apply m c t 0 k).trans (arr4_apply m c k))
      (fun k q => (blk5_apply m c t k q).trans (arr5_apply m c k q))
      (fun k q => (blk6_apply m c t k q).trans (arr6_apply m c k q))
      (fun k q => (blk7_apply m c t k q).trans (arr7_apply m c k q))
      (fun q => (blk8_apply m c t 0 q).trans (arr8_apply m c q)) (blk9_apply m c t) p q

/-- What point `t` writes back to the first result is block `t` of `res1`. -/
theorem flushed10_eq (c : Dev nD) (t : Fin cfg0.N) :
    (dats m 0 c).flushed 10 t = ((cfg0.win 10).blk t).view.read (Elt Ideal) (res1 m c) := by
  rw [flushed10, out10_eq]
  funext j
  obtain ⟨p, q, rfl⟩ : ∃ (p : Fin 4000) (q : Fin 64), j = ix2 p q := ⟨j 0, j 1, eq_ix2 j⟩
  show tileOut1 (iblk m c 0 t) (iblk m c 1 t) (iblk m c 2 t) (iblk m c 3 t) (iblk m c 4 t) (iblk m c 5 t) (iblk m c 6 t) (iblk m c 7 t) (iblk m c 8 t) p q = res1 m c (((cfg0.win 10).blk t).view.emb (ix2 p q))
  rw [emb10]
  exact out1_at m c t p q

/-- What point `t` writes back to the second result is block `t` of `res2`. -/
theorem flushed11_eq (c : Dev nD) (t : Fin cfg0.N) :
    (dats m 0 c).flushed 11 t = ((cfg0.win 11).blk t).view.read (Elt Ideal) (res2 m c) := by
  rw [flushed11, out11_eq]
  funext j
  obtain ⟨p, q, rfl⟩ : ∃ (p : Fin 4000) (q : Fin 64), j = ix2 p q := ⟨j 0, j 1, eq_ix2 j⟩
  show tileOut2 (iblk m c 0 t) (iblk m c 1 t) (iblk m c 2 t) (iblk m c 3 t) (iblk m c 4 t) (iblk m c 5 t) (iblk m c 6 t) (iblk m c 7 t) (iblk m c 8 t) (iblk m c 9 t) p q = res2 m c (((cfg0.win 11).blk t).view.emb (ix2 p q))
  rw [emb11]
  exact out2_at m c t p q

/-- After the run the first result array is `res1`. -/
theorem final10 (c : Dev nD) : (dats m 0 c).arrAt 10 cfg0.N = res1 m c :=
  (dats m 0 c).arrAt_eq_of_cover 10 (res1 m c) (fun t _ => flushed10_eq m c t) cover10

/-- After the run the second result array is `res2`. -/
theorem final11 (c : Dev nD) : (dats m 0 c).arrAt 11 cfg0.N = res2 m c :=
  (dats m 0 c).arrAt_eq_of_cover 11 (res2 m c) (fun t _ => flushed11_eq m c t) cover11

/-! ## The run, read -/

/-- The kernel's run with each result array at its function of the arrays the region finds, the arguments unchanged. -/
theorem run : θ_run defs (onTc (τ := τ) (main (F := Ideal))) ⟨m, fun _ => 0, ρ⟩ fun r => ∀ c : Dev nD,
      r.2.mem ((c : Thread nD τ).loc main_v26_0) = res1 m c
      ∧ r.2.mem ((c : Thread nD τ).loc main_v26_1) = res2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (run_blocks m ρ)

end Cert.KernelIdeal.Edge

end
-- ==== Proof.lean ====
/-
  The edge features of one message-passing layer: a kernel that streams 200 tiles of 4000 edges, against the plain
  array program.

  Both programs first gather, on the host and by the same operations, the embedding rows `xi`, `xj` of every edge's two
  endpoints. The array program then lays `xi`, `xj` and the hidden radial features `h = swish (rbf · W₀ + b₀)` side by side
  into rows of 192 and multiplies by the whole weight `W : [192, 64]`. The kernel instead multiplies `xi`, `xj` and `h` by the
  three 64-row blocks of `W` and adds the three products. Over the extended reals the two agree because a sum over 192
  terms is the sum of its three runs of 64 (`EdgeFeats.sum_three_blocks`): an identity of addition alone, which holds with
  infinite terms as well, so the precondition (finite inputs) is never opened. Both then add the bias, apply
  `swish v = v · logistic v`, and form the second result `(rbf · W₁) · e₁`.

  The logistic function is one operation in the kernel and the quotient `1 / (1 + e^(-v))` in the array program; on the
  extended reals, infinities included, that quotient is what the logistic function is defined to be
  (`EdgeFeats.swish_spelt`). A change of float format is the identity there, and a matrix product into a zero
  accumulator is a plain sum of products.

  `EdgeSpec` states the two results as functions `e1`, `e2` of the arrays, index by index; `RefEdge` reads the array
  program's run as those functions; `EdgeTile` reads the kernel body on one tile, `EdgeBlocks` says which rows of which
  arrays a tile's blocks are, and `EdgeValue` puts the 200 written blocks together into the two result arrays. Here the
  gathered rows of the two programs are identified (the same host operations of the same arguments), and the claims
  assembled. The kernel's and the idealized kernel's frames are the generated ones; no rewrite separates the two, so
  there is nothing to preserve.
-/
import proofs.«133164_j79542794322611_1_alg».proof.Defs
import proofs.«133164_j79542794322611_1_alg».proof.Proof.Gen.Kernel
import proofs.«133164_j79542794322611_1_alg».proof.Proof.Gen.Kernel.Skeleton
import proofs.«133164_j79542794322611_1_alg».proof.Proof.Gen.Kernel.Launch
import proofs.«133164_j79542794322611_1_alg».proof.Proof.Gen.Kernel.Points
import proofs.«133164_j79542794322611_1_alg».proof.Proof.Gen.Kernel.Frame
import proofs.«133164_j79542794322611_1_alg».proof.Proof.Gen.KernelIdeal
import proofs.«133164_j79542794322611_1_alg».proof.Proof.Gen.KernelIdeal.Skeleton
import proofs.«133164_j79542794322611_1_alg».proof.Proof.Gen.KernelIdeal.Launch
import proofs.«133164_j79542794322611_1_alg».proof.Proof.Gen.KernelIdeal.Points
import proofs.«133164_j79542794322611_1_alg».proof.Proof.Gen.KernelIdeal.Frame
import proofs.«133164_j79542794322611_1_alg».proof.Proof.Gen.ReferenceIdeal
import proofs.«133164_j79542794322611_1_alg».proof.Proof.Gen.Pre_finite_inputs
import proofs.«133164_j79542794322611_1_alg».proof.Proof.Gen.KernelIdeal.Value
import proofs.«133164_j79542794322611_1_alg».proof.Proof.Gen.ReferenceIdeal.Run
import proofs.«133164_j79542794322611_1_alg».proof.Proof.Gen.ReferenceIdeal.Read
import proofs.«133164_j79542794322611_1_alg».proof.Proof.RefEdge
import proofs.«133164_j79542794322611_1_alg».proof.Proof.EdgeValue
import Idealize.ShloMosaic.Adequacy
import Idealize.ShloMosaic.Init

noncomputable section

namespace Cert.Proof

open Idealize.ShloMosaic Idealize.ShloMosaic.TcCoe Idealize.SL.Sem Idealize.ShloMosaic.StableHlo EdgeFeats

/-! ## The gathered endpoint rows are the same arrays in both programs -/

section Gathered

variable (m : (ℓ : Loc Cert.KernelIdeal.nD Cert.KernelIdeal.τ Cert.KernelIdeal.sig) → Buf (Elt Ideal) ℓ)

/-- The rows gathered for each edge's first endpoint: the kernel's host operations before its region are the array
    program's, applied to the same arguments. -/
theorem gathered_i (c : Dev Cert.KernelIdeal.nD) :
    Cert.KernelIdeal.Blocks.arr0 m c = Cert.ReferenceIdeal.Read.val_main_v24 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg4)) := by
  show (Cert.KernelIdeal.Gen.V m c Cert.KernelIdeal.main_v13 : Cert.KernelIdeal.S800000x64.Idx → EReal) = _
  dsimp only [Cert.KernelIdeal.Gen.V, Cert.KernelIdeal.Gen.hostOps0]
  after_results_simp <;> rfl

/-- The same for each edge's second endpoint. -/
theorem gathered_j (c : Dev Cert.KernelIdeal.nD) :
    Cert.KernelIdeal.Blocks.arr1 m c = Cert.ReferenceIdeal.Read.val_main_v31 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) := by
  show (Cert.KernelIdeal.Gen.V m c Cert.KernelIdeal.main_v20 : Cert.KernelIdeal.S800000x64.Idx → EReal) = _
  dsimp only [Cert.KernelIdeal.Gen.V, Cert.KernelIdeal.Gen.hostOps0]
  after_results_simp <;> rfl

/-- So the kernel's first result is `e1` of the array program's gathered rows and of the arguments. -/
theorem res1_eq (c : Dev Cert.KernelIdeal.nD) :
    Cert.KernelIdeal.Edge.res1 m c
      = e1 (Cert.ReferenceIdeal.Read.val_main_v24 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg4)))
          (Cert.ReferenceIdeal.Read.val_main_v31 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)))
          (m ((c : Thread Cert.KernelIdeal.nD Cert.KernelIdeal.τ).loc Cert.KernelIdeal.main_arg1)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  show e1 (Cert.KernelIdeal.Blocks.arr0 m c) (Cert.KernelIdeal.Blocks.arr1 m c) (Cert.KernelIdeal.Blocks.arr2 m c) (Cert.KernelIdeal.Blocks.arr3 m c) _ _ _ = _
  rw [gathered_i, gathered_j, Cert.KernelIdeal.Blocks.arr2_eq, Cert.KernelIdeal.Blocks.arr3_eq]

/-- And its second result `e2` of the same. -/
theorem res2_eq (c : Dev Cert.KernelIdeal.nD) :
    Cert.KernelIdeal.Edge.res2 m c
      = e2 (Cert.ReferenceIdeal.Read.val_main_v24 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg4)))
          (Cert.ReferenceIdeal.Read.val_main_v31 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)))
          (m ((c : Thread Cert.KernelIdeal.nD Cert.KernelIdeal.τ).loc Cert.KernelIdeal.main_arg1)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) := by
  show e2 (Cert.KernelIdeal.Blocks.arr0 m c) (Cert.KernelIdeal.Blocks.arr1 m c) (Cert.KernelIdeal.Blocks.arr2 m c) (Cert.KernelIdeal.Blocks.arr3 m c) _ _ _
    (Cert.KernelIdeal.Blocks.arr9 m c) = _
  rw [gathered_i, gathered_j, Cert.KernelIdeal.Blocks.arr2_eq, Cert.KernelIdeal.Blocks.arr3_eq, Cert.KernelIdeal.Blocks.arr9_eq]

end Gathered

/-! ## The claims -/

theorem frame_k : Cert.frame_Kernel := fun m ρ _ => Cert.Kernel.Gen.frame m ρ

theorem frame_ki : Cert.frame_KernelIdeal := fun m ρ _ => Cert.KernelIdeal.Gen.frame m ρ

/-- The array program's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs, from memories that agree on the arguments, end with `e1` and `e2` of the gathered rows and the
    arguments. -/
theorem algebraic : Cert.algebraic_KernelIdeal_ReferenceIdeal := by
  intro m ρ m' ρ' _ hagree
  refine ⟨fun c => Cert.KernelIdeal.Edge.res1 m c, fun c => Cert.KernelIdeal.Edge.res2 m c, Cert.KernelIdeal.Edge.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2⟩
  · rw [Cert.ReferenceIdeal.Read.val_main_v43_eq, Cert.ReferenceIdeal.Edge.result1, a0, a1, a2, a3, a4, a5, a6, a7, a8]
    exact (res1_eq m c).symm
  · rw [Cert.ReferenceIdeal.Read.val_main_v45_eq, Cert.ReferenceIdeal.Edge.result2, a0, a1, a2, a3, a4, a5, a6, a7, a8, a9]
    exact (res2_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
